-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 86
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S1x16, .f32⟩
  | .hbm, ⟨85, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x16, .f32⟩
  | .hbm, ⟨95, _⟩ => ⟨S1x16, .f32⟩
  | .hbm, ⟨96, _⟩ => ⟨S100000x16, .f32⟩
  | .hbm, ⟨97, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel program's run, with its result named. Every weakly fair execution of the program terminates,
  nothing faulting, the argument arrays unchanged, and the result array holds what the last of the program's eight
  segments (host operations, then a region, three times over) leaves in it: the contents `W8` of the buffers at the last
  boundary, a fold of the segments over the launch memory. What that fold is at the result array, as a function of the
  arguments, is read elsewhere; here only the run is stated, from the launch of the segments.
-/
import proofs.«110061_j30425548325001_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Result

end
-- ==== Proof.Graph.lean ====
/-
  The graph side of a two-layer graph convolution, on the extended reals, as functions of whole arrays.

  The edge list is a 2×1600000 array of 32-bit node numbers: row 0 the source of each edge, row 1 its destination.
  Every node also gets a loop edge to itself, so the edge list is lengthened by the node numbers 0 … 99999: `src e` and
  `dst e` are the 1700000 sources and destinations. The degree of a node is the number of edges that end in it (a sum of
  ones scattered by destination); `dinv` is degree^(-1/2) where the degree is positive and zero elsewhere; the weight of
  an edge is dinv(source) · dinv(destination): `norm e`. A negative node number counts from the end of the array:
  `wrap`.

  One round of message passing, `agg src dst norm H`: each edge carries row source of the 100000×64 array H, times
  the edge's weight, and each node sums what arrives on the edges that end in it, starting from zero.

  Nothing is proved here and nothing mentions a program: both programs of the certificate spell these operations the
  same way, and the certificate only ever needs that equal inputs give equal outputs.
-/
import Idealize.ShloMosaic.PureOps
import Idealize.ShloMosaic.PureOps.Ideal

noncomputable section

namespace Cert.Gcn.Graph

open Idealize.ShloMosaic

abbrev SE : Shape := ⟨2, ![2, 1600000]⟩
abbrev SE1 : Shape := ⟨2, ![1, 1600000]⟩
abbrev SEv : Shape := ⟨1, ![1600000]⟩
abbrev SN : Shape := ⟨1, ![100000]⟩
abbrev SL : Shape := ⟨1, ![1700000]⟩
abbrev SL1 : Shape := ⟨2, ![1700000, 1]⟩
abbrev SLF : Shape := ⟨2, ![1700000, 64]⟩
abbrev SNF : Shape := ⟨2, ![100000, 64]⟩
abbrev S0 : Shape := ⟨0, ![]⟩

/-- Scatter of one number per edge into one number per node, by the edge's node number. -/
def scNode : ScatterDims SN SL1 SL where
  updateWindowDims := []
  insertedWindowDims := [0]
  scatterDimsToOperandDims := [0]
  indexVectorDim := 1
/-- Read of one number per edge out of one number per node, by the edge's node number. -/
def gNode : GatherDims SN SL1 SL where
  offsetDims := []
  collapsedSliceDims := [0]
  operandBatchingDims := []
  startIndicesBatchingDims := []
  startIndexMap := [0]
  indexVectorDim := 1
  sliceSizes := ![1]
/-- Read of one 64-entry row per edge out of the 100000×64 node array, by the edge's node number. -/
def gRow : GatherDims SNF SL1 SLF where
  offsetDims := [1]
  collapsedSliceDims := [0]
  operandBatchingDims := []
  startIndicesBatchingDims := []
  startIndexMap := [0]
  indexVectorDim := 1
  sliceSizes := ![1, 64]
/-- Scatter of one 64-entry row per edge into the 100000×64 node array, by the edge's node number. -/
def scRow : ScatterDims SNF SL1 SLF where
  updateWindowDims := [1]
  insertedWindowDims := [0]
  scatterDimsToOperandDims := [0]
  indexVectorDim := 1

theorem cat_edges_nodes : Shape.Concatenates [SEv, SN] SL 0 := by decide

/-- The sources of the 1700000 edges: row 0 of the edge list, then every node's loop edge. -/
def src (e : IVec SE 32) : IVec SL 32 :=
  concatenate SL 0 [⟨SEv, shapeCast SEv (extractStridedSlice SE1 ![0, 0] e (by decide)) (by decide)⟩, ⟨SN, iotaInDim SN 32 0⟩] cat_edges_nodes

/-- The destinations of the 1700000 edges: row 1 of the edge list, then every node's loop edge. -/
def dst (e : IVec SE 32) : IVec SL 32 :=
  concatenate SL 0 [⟨SEv, shapeCast SEv (extractStridedSlice SE1 ![1, 0] e (by decide)) (by decide)⟩, ⟨SN, iotaInDim SN 32 0⟩] cat_edges_nodes

/-- A node number as an index into the 100000 nodes: a negative one counts from the end; as a column of
    one-entry index vectors. -/
def wrap (v : IVec SL 32) : IVec SL1 32 :=
  broadcastInDim SL1 ![0] (by decide)
    (select (cmpi .slt v (broadcastInDim SL ![] (by decide) (constantI S0 32 0#32)))
      (addi v (broadcastInDim SL ![] (by decide) (constantI S0 32 100000#32))) v)

/-- The degree of every node: ones summed over the edges that end in it. -/
def deg (e : IVec SE 32) : FVec Ideal SN .f32 :=
  Host.scatterAdd scNode (broadcastInDim SN ![] (by decide) (constant S0 .f32 0x00000000#32))
    (broadcastInDim SL1 ![0] (by decide) (dst e)) (broadcastInDim SL ![] (by decide) (constant S0 .f32 0x3F800000#32))

/-- degree^(-1/2) where the degree is positive, zero elsewhere. -/
def dinv (e : IVec SE 32) : FVec Ideal SN .f32 :=
  select (cmpf (F := Ideal) .ogt (deg e) (broadcastInDim SN ![] (by decide) (constant S0 .f32 0x00000000#32)))
    (Host.rsqrt (deg e)) (broadcastInDim SN ![] (by decide) (id (constant S0 .f32 0x00000000#32)))

/-- The weight of every edge: dinv of its source times dinv of its destination. -/
def norm (e : IVec SE 32) : FVec Ideal SL .f32 :=
  mulf (Host.gather gNode (dinv e) (wrap (src e))) (Host.gather gNode (dinv e) (wrap (dst e)))

/-- One round of message passing over the edges `s → d` with weights `w`: node by node, from zero, the sum over the
    edges that end in it of the source's row of H times the edge's weight. -/
def agg (s d : IVec SL 32) (w : FVec Ideal SL .f32) (H : FVec Ideal SNF .f32) : FVec Ideal SNF .f32 :=
  Host.scatterAdd scRow (broadcastInDim SNF ![] (by decide) (constant S0 .f32 0x00000000#32))
    (broadcastInDim SL1 ![0] (by decide) d)
    (mulf (Host.gather gRow H (wrap s)) (broadcastInDim SLF ![0, 1] (by decide) (broadcastInDim SL1 ![0] (by decide) w)))

end Cert.Gcn.Graph

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«110061_j30425548325001_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«110061_j30425548325001_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«110061_j30425548325001_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«110061_j30425548325001_1_alg».proof.Proof.LibBlockReads
import proofs.«110061_j30425548325001_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibRowAffine.lean ====
/-
  A linear layer with a bias row, on the extended reals, as a function of whole arrays.

  `rowAffine X W b` takes an r×k array X, a k×n array W and a 1×n row b to the r×n array whose entry (p, q) is the sum
  over c of X(p, c) · W(c, q), plus b(0, q). An entry depends on one row of X, so the layer applied to a block of rows of
  X gives the same rows of the layer applied to X: `rowAffine_entry`, with the index inside the block and the index of
  the whole array as variables. A kernel body's spelling of the layer — the left operand narrowed to a shorter float
  format, the right operand and the bias row re-shaped in place, the product accumulated into zeros, the row broadcast
  down the rows and added — is this function (`body_rowAffine`): on the extended reals a change of float format is the
  identity and a product into zeros is the plain sum. Nothing is distributed or cancelled, so no finiteness is asked.
  Nothing here mentions a program.
-/
import Idealize.ShloMosaic.PureOps.Ideal.Laws
import Idealize.ShloMosaic.Lib.ValueIdx
import Idealize.ShloMosaic.Lib.Pipeline.Value
import proofs.«110061_j30425548325001_1_alg».proof.Proof.LibBlockReads
import proofs.«110061_j30425548325001_1_alg».proof.Proof.LibMatProd

open scoped BigOperators

noncomputable section

namespace Cert.Lib.RowAffine

open Idealize.ShloMosaic Idealize.ShloMosaic.ValueIdx Cert.Lib.MatProd

variable {r r' k n : Nat}

/-- Entry (p, q) is the sum over c of X(p, c) · W(c, q), plus b(0, q). -/
def rowAffine (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => matProd X W i + b (ix2 (0 : Fin 1) (⟨(i 1).val, idx2_lt1 i⟩ : Fin n))

theorem rowAffine_apply (X : (⟨2, ![r, k]⟩ : Shape).Idx → EReal) (W : (⟨2, ![k, n]⟩ : Shape).Idx → EReal)
    (b : (⟨2, ![1, n]⟩ : Shape).Idx → EReal) (p : Fin r) (q : Fin n) :
    rowAffine X W b (ix2 p q) = (∑ c : Fin k, X (ix2 p c) * W (ix2 c q)) + b (ix2 0 q) := rfl

/-- If row (y 0) of X' is row (i 0) of X, and y and i have the same column, the layer of X' at y is the layer of X
    at i. -/
theorem rowAffine_entry (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hcol : (y 1).val = (i 1).val) :
    rowAffine X' W b y = rowAffine X W b i := by
  obtain ⟨p, q, rfl⟩ : ∃ (p : Fin r') (q : Fin n), y = ix2 p q := ⟨y 0, y 1, eq_ix2 y⟩
  obtain ⟨p', q', rfl⟩ : ∃ (p' : Fin r) (q' : Fin n), i = ix2 p' q' := ⟨i 0, i 1, eq_ix2 i⟩
  have hq : q = q' := Fin.ext hcol
  subst hq
  rw [rowAffine_apply, rowAffine_apply]
  refine congrArg (· + b (ix2 0 q)) (Finset.sum_congr rfl fun c _ => ?_)
  have h : X' (ix2 p c) = X (ix2 p' c) := hX c
  rw [h]

/-- The kernel body's spelling: the left operand narrowed, the right operand and the bias row re-shaped in place, the
    product accumulated into zeros, the row broadcast down the rows and added. -/
theorem body_rowAffine {φ ψ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x0 : FVec Ideal ⟨2, ![r, k]⟩ .f32) (x1 : FVec Ideal ⟨2, ![k, n]⟩ φ) (x2 : FVec Ideal ⟨2, ![1, n]⟩ .f32)
    (ht : ψ.bits < FTy.f32.bits) (h1 : (⟨2, ![k, n]⟩ : Shape).ShapeCasts ⟨2, ![k, n]⟩)
    (h2 : (⟨2, ![1, n]⟩ : Shape).ShapeCasts ⟨2, ![1, n]⟩) (hb : (⟨2, ![1, n]⟩ : Shape).Broadcasts ⟨2, ![r, n]⟩) :
    addf (matmul d prec (truncf ψ x0 ht) (shapeCast ⟨2, ![k, n]⟩ x1 h1) (constant ⟨2, ![r, n]⟩ .f32 0x00000000#32))
      (broadcastTo ⟨2, ![r, n]⟩ (shapeCast ⟨2, ![1, n]⟩ x2 h2) hb) = rowAffine x0 x1 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply,
    Cert.Lib.BlockReads.matmul_zero_rows_apply d hlc hrc hln hrn hlb hrb prec _ _ p q]
  rfl

end Cert.Lib.RowAffine

end
-- ==== Proof.Layers.lean ====
/-
  The dense side of a two-layer graph convolution with a linear head, on the extended reals, as functions of whole
  arrays.

  `hidden A b W`: the r×k array A gets the bias row b added to every row and is clamped below at zero, and the result
  is multiplied by the k×n array W. `head A b W c` is the same followed by adding the row c to every row of the
  product. An entry of either depends on one row of A, so a block of rows of A gives the same rows of the result
  (`hidden_rows`, `head_rows`). A kernel body's spelling of each (operands narrowed to a shorter float format, which
  on the extended reals changes nothing; the product accumulated into zeros) and the reference's spelling (the host's
  dot_general; bias vectors broadcast into rows and then into arrays) are these functions. `net` composes the three
  dense steps around two rounds of an arbitrary map `g` of 100000×64 arrays (the message passing). No sum is
  re-arranged and nothing is distributed or cancelled, so finiteness is never asked. Nothing here mentions a program.
-/
import Idealize.ShloMosaic.PureOps.Ideal.Laws
import Idealize.ShloMosaic.Lib.ValueIdx
import Idealize.ShloMosaic.Lib.Pipeline.Value
import proofs.«110061_j30425548325001_1_alg».proof.Proof.LibBlockReads
import proofs.«110061_j30425548325001_1_alg».proof.Proof.LibMatProd
import proofs.«110061_j30425548325001_1_alg».proof.Proof.LibRowBlocks
import proofs.«110061_j30425548325001_1_alg».proof.Proof.LibRowVector
import proofs.«110061_j30425548325001_1_alg».proof.Proof.LibBiasRelu
import proofs.«110061_j30425548325001_1_alg».proof.Proof.LibRowAffine

open scoped BigOperators

noncomputable section

namespace Cert.Gcn

open Idealize.ShloMosaic Idealize.ShloMosaic.ValueIdx
open Cert.Lib.MatProd Cert.Lib.RowBlocks Cert.Lib.RowVector Cert.Lib.BiasRelu Cert.Lib.RowAffine

variable {r r' k n : Nat}

/-- Bias row added, clamped below at zero, then multiplied by W. -/
def hidden (A : (⟨2, ![r, k]⟩ : Shape).Idx → EReal) (b : (⟨2, ![1, k]⟩ : Shape).Idx → EReal)
    (W : (⟨2, ![k, n]⟩ : Shape).Idx → EReal) : (⟨2, ![r, n]⟩ : Shape).Idx → EReal :=
  matProd (biasRelu A b) W

/-- The same, and the row c added to every row of the product. -/
def head (A : (⟨2, ![r, k]⟩ : Shape).Idx → EReal) (b : (⟨2, ![1, k]⟩ : Shape).Idx → EReal)
    (W : (⟨2, ![k, n]⟩ : Shape).Idx → EReal) (c : (⟨2, ![1, n]⟩ : Shape).Idx → EReal) :
    (⟨2, ![r, n]⟩ : Shape).Idx → EReal :=
  rowAffine (biasRelu A b) W c

/-- If row (y 0) of A' is row (i 0) of A and y, i have the same column, `hidden` of A' at y is `hidden` of A at i. -/
theorem hidden_rows (A : (⟨2, ![r, k]⟩ : Shape).Idx → EReal) (A' : (⟨2, ![r', k]⟩ : Shape).Idx → EReal)
    (b : (⟨2, ![1, k]⟩ : Shape).Idx → EReal) (W : (⟨2, ![k, n]⟩ : Shape).Idx → EReal)
    (y : (⟨2, ![r', n]⟩ : Shape).Idx) (i : (⟨2, ![r, n]⟩ : Shape).Idx)
    (hA : ∀ q : Fin k, A' (ix2 (⟨(y 0).val, idx2_lt0 y⟩ : Fin r') q) = A (ix2 (⟨(i 0).val, idx2_lt0 i⟩ : Fin r) q))
    (hcol : (y 1).val = (i 1).val) : hidden A' b W y = hidden A b W i :=
  matProd_rows (biasRelu A b) (biasRelu A' b) W y i (fun q => biasRelu_rows A A' b _ _ q (hA q)) hcol

/-- The same for `head`. -/
theorem head_rows (A : (⟨2, ![r, k]⟩ : Shape).Idx → EReal) (A' : (⟨2, ![r', k]⟩ : Shape).Idx → EReal)
    (b : (⟨2, ![1, k]⟩ : Shape).Idx → EReal) (W : (⟨2, ![k, n]⟩ : Shape).Idx → EReal)
    (c : (⟨2, ![1, n]⟩ : Shape).Idx → EReal)
    (y : (⟨2, ![r', n]⟩ : Shape).Idx) (i : (⟨2, ![r, n]⟩ : Shape).Idx)
    (hA : ∀ q : Fin k, A' (ix2 (⟨(y 0).val, idx2_lt0 y⟩ : Fin r') q) = A (ix2 (⟨(i 0).val, idx2_lt0 i⟩ : Fin r) q))
    (hcol : (y 1).val = (i 1).val) : head A' b W c y = head A b W c i :=
  rowAffine_entry (biasRelu A b) (biasRelu A' b) W c y i (fun q => biasRelu_rows A A' b _ _ q (hA q)) hcol

/-! ## A kernel body's spellings -/

/-- Both operands narrowed, the product accumulated into zeros: the plain product. -/
theorem body_matProd (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (x0 : FVec Ideal ⟨2, ![r, k]⟩ .f32) (x1 : FVec Ideal ⟨2, ![k, n]⟩ .f32) (ht : FTy.bf16.bits < FTy.f32.bits) :
    matmul d none (truncf .bf16 x0 ht) (truncf .bf16 x1 ht) (constant ⟨2, ![r, n]⟩ .f32 0x00000000#32)
      = matProd x0 x1 :=
  matmul_zero_eq_matProd d hlc hrc hln hrn hlb hrb none (truncf .bf16 x0 ht) (truncf .bf16 x1 ht)

/-- The bias row re-shaped in place, broadcast down the rows and added, the maximum with a splat zero, both operands
    narrowed, the product accumulated into zeros: `hidden`. -/
theorem body_hidden (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (x0 : FVec Ideal ⟨2, ![r, k]⟩ .f32) (x1 : FVec Ideal ⟨2, ![1, k]⟩ .f32) (x2 : FVec Ideal ⟨2, ![k, n]⟩ .f32)
    (h0 : (⟨2, ![r, k]⟩ : Shape).ShapeCasts ⟨2, ![r, k]⟩) (h1 : (⟨2, ![1, k]⟩ : Shape).ShapeCasts ⟨2, ![1, k]⟩)
    (hb : (⟨2, ![1, k]⟩ : Shape).Broadcasts ⟨2, ![r, k]⟩) (ht : FTy.bf16.bits < FTy.f32.bits) :
    matmul d none
        (truncf .bf16 (maximumf (addf (shapeCast ⟨2, ![r, k]⟩ x0 h0) (broadcastTo ⟨2, ![r, k]⟩ (shapeCast ⟨2, ![1, k]⟩ x1 h1) hb))
          (broadcast ⟨2, ![r, k]⟩ (Scalar.ofBits (F := Ideal) .f32 0x00000000#32))) ht)
        (truncf .bf16 x2 ht) (constant ⟨2, ![r, n]⟩ .f32 0x00000000#32)
      = hidden x0 x1 x2 := by
  rw [Cert.Lib.BiasRelu.body_eq x0 x1 h0 h1 hb]
  exact matmul_zero_eq_matProd d hlc hrc hln hrn hlb hrb none (truncf .bf16 (biasRelu x0 x1) ht) (truncf .bf16 x2 ht)

/-- The same, and a second row re-shaped in place, broadcast down the rows and added to the product: `head`. -/
theorem body_head (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (x0 : FVec Ideal ⟨2, ![r, k]⟩ .f32) (x1 : FVec Ideal ⟨2, ![1, k]⟩ .f32) (x2 : FVec Ideal ⟨2, ![k, n]⟩ .f32)
    (x3 : FVec Ideal ⟨2, ![1, n]⟩ .f32)
    (h0 : (⟨2, ![r, k]⟩ : Shape).ShapeCasts ⟨2, ![r, k]⟩) (h1 : (⟨2, ![1, k]⟩ : Shape).ShapeCasts ⟨2, ![1, k]⟩)
    (hb : (⟨2, ![1, k]⟩ : Shape).Broadcasts ⟨2, ![r, k]⟩) (ht : FTy.bf16.bits < FTy.f32.bits)
    (h3 : (⟨2, ![1, n]⟩ : Shape).ShapeCasts ⟨2, ![1, n]⟩) (hb3 : (⟨2, ![1, n]⟩ : Shape).Broadcasts ⟨2, ![r, n]⟩) :
    addf (matmul d none
        (truncf .bf16 (maximumf (addf (shapeCast ⟨2, ![r, k]⟩ x0 h0) (broadcastTo ⟨2, ![r, k]⟩ (shapeCast ⟨2, ![1, k]⟩ x1 h1) hb))
          (broadcast ⟨2, ![r, k]⟩ (Scalar.ofBits (F := Ideal) .f32 0x00000000#32))) ht)
        (truncf .bf16 x2 ht) (constant ⟨2, ![r, n]⟩ .f32 0x00000000#32))
      (broadcastTo ⟨2, ![r, n]⟩ (shapeCast ⟨2, ![1, n]⟩ x3 h3) hb3)
      = head x0 x1 x2 x3 := by
  rw [Cert.Lib.BiasRelu.body_eq x0 x1 h0 h1 hb]
  funext i
  obtain ⟨p, q, rfl⟩ : ∃ (p : Fin r) (q : Fin n), i = ix2 p q := ⟨i 0, i 1, eq_ix2 i⟩
  rw [addf_apply, shapeCast_self, Cert.Lib.BlockReads.broadcast_row_apply,
    Cert.Lib.BlockReads.matmul_zero_rows_apply d hlc hrc hln hrn hlb hrb none _ _ p q]
  rfl

/-! ## The reference's spellings -/

/-- The host's dot_general is the plain product. -/
theorem host_matProd (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) :
    Host.dotGeneral d none X W = matProd X W :=
  dotGeneral_eq_matProd d hlc hrc hln hrn hlb hrb none .single X W

/-- The bias vector broadcast into a row and then into the array, added, the maximum with a broadcast zero, then the
    host's dot_general: `hidden` with the vector as a row. -/
theorem host_hidden (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![r, k]⟩ .f32) (b : FVec Ideal ⟨1, ![k]⟩ .f32) (W : FVec Ideal ⟨2, ![k, n]⟩ .f32)
    (h1 : (⟨1, ![k]⟩ : Shape).BroadcastsInDim ⟨2, ![1, k]⟩ ![1])
    (h2 : (⟨2, ![1, k]⟩ : Shape).BroadcastsInDim ⟨2, ![r, k]⟩ ![0, 1])
    (h3 : (⟨0, ![]⟩ : Shape).BroadcastsInDim ⟨2, ![r, k]⟩ ![]) :
    Host.dotGeneral d none
        (maximumf (addf A (broadcastInDim ⟨2, ![r, k]⟩ ![0, 1] h2 (broadcastInDim ⟨2, ![1, k]⟩ ![1] h1 b)))
          (broadcastInDim ⟨2, ![r, k]⟩ ![] h3 (constant (F := Ideal) ⟨0, ![]⟩ .f32 0x00000000#32))) W
      = hidden A (asRow b) W := by
  rw [Cert.Lib.BiasRelu.host_eq A b h1 h2 h3]
  exact dotGeneral_eq_matProd d hlc hrc hln hrn hlb hrb none .single (biasRelu A (asRow b)) W

/-- The same, and a second vector broadcast into a row and then into the array, added to the product: `head`. -/
theorem host_head (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![r, k]⟩ .f32) (b : FVec Ideal ⟨1, ![k]⟩ .f32) (W : FVec Ideal ⟨2, ![k, n]⟩ .f32)
    (c : FVec Ideal ⟨1, ![n]⟩ .f32)
    (h1 : (⟨1, ![k]⟩ : Shape).BroadcastsInDim ⟨2, ![1, k]⟩ ![1])
    (h2 : (⟨2, ![1, k]⟩ : Shape).BroadcastsInDim ⟨2, ![r, k]⟩ ![0, 1])
    (h3 : (⟨0, ![]⟩ : Shape).BroadcastsInDim ⟨2, ![r, k]⟩ ![])
    (h4 : (⟨1, ![n]⟩ : Shape).BroadcastsInDim ⟨2, ![1, n]⟩ ![1])
    (h5 : (⟨2, ![1, n]⟩ : Shape).BroadcastsInDim ⟨2, ![r, n]⟩ ![0, 1]) :
    addf (Host.dotGeneral d none
        (maximumf (addf A (broadcastInDim ⟨2, ![r, k]⟩ ![0, 1] h2 (broadcastInDim ⟨2, ![1, k]⟩ ![1] h1 b)))
          (broadcastInDim ⟨2, ![r, k]⟩ ![] h3 (constant (F := Ideal) ⟨0, ![]⟩ .f32 0x00000000#32))) W)
      (broadcastInDim ⟨2, ![r, n]⟩ ![0, 1] h5 (broadcastInDim ⟨2, ![1, n]⟩ ![1] h4 c))
      = head A (asRow b) W (asRow c) := by
  rw [Cert.Lib.BiasRelu.host_eq A b h1 h2 h3, host_matProd d hlc hrc hln hrn hlb hrb (biasRelu A (asRow b)) W]
  funext i
  obtain ⟨p, q, rfl⟩ : ∃ (p : Fin r) (q : Fin n), i = ix2 p q := ⟨i 0, i 1, eq_ix2 i⟩
  rw [addf_apply, bcastInDim_rows_apply, bcastInDim_eq_asRow]
  rfl

/-! ## The whole network around a map of node arrays -/

/-- Two graph-convolution layers and a linear head: x·W1, the map g, bias b1 and clamp, ·W2, the map g, bias b2 and
    clamp, ·Wl, plus bl. -/
def net (g : ((⟨2, ![100000, 64]⟩ : Shape).Idx → EReal) → ((⟨2, ![100000, 64]⟩ : Shape).Idx → EReal))
    (x : (⟨2, ![100000, 128]⟩ : Shape).Idx → EReal) (W1 : (⟨2, ![128, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (Wl : (⟨2, ![64, 16]⟩ : Shape).Idx → EReal)
    (bl : (⟨1, ![16]⟩ : Shape).Idx → EReal) : (⟨2, ![100000, 16]⟩ : Shape).Idx → EReal :=
  head (g (hidden (g (matProd x W1)) (asRow b1) W2)) (asRow b2) Wl (asRow bl)

end Cert.Gcn

end
-- ==== Proof.GraphFold1.lean ====
/-
  The graph side of the idealized kernel program, first stretch. The program's first eighteen host operations compute,
  from the edge list alone: the sources and the destinations of the edges with every node's loop edge appended
  (`Graph.src`, `Graph.dst`), the degree of every node, whether it is positive, and its power -1/2. Read here: what
  each of those buffers holds after the stretch, as a function of the edge list at launch, and that every argument array
  still holds its launch contents. A buffer the stretch does not write keeps its contents; a buffer it writes holds
  the operation's function of its operands.
-/
import proofs.«110061_j30425548325001_1_alg».proof.Proof.Gen.KernelIdeal.Frame
import proofs.«110061_j30425548325001_1_alg».proof.Proof.Graph
import proofs.«110061_j30425548325001_1_alg».proof.Proof.Layers
import Idealize.ShloMosaic.Lib.StableHlo.Run

noncomputable section

namespace Cert.KernelIdeal.Fold

open Cert.KernelIdeal Cert.KernelIdeal.Gen Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

/-! ## After the first stretch -/
theorem W1_arg0 : W1 m ρ c (Proc.devRef .tc main_arg0) = m ((c : Thread nD τ).loc main_arg0) := by
  show StableHlo.after hostOps0 (W0 m ρ c) (Proc.devRef .tc main_arg0) = _
  after_results
theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results

theorem W1_v3 : W1 m ρ c (Proc.devRef .tc main_v3) = Graph.src (m ((c : Thread nD τ).loc main_arg1)) := by
  show StableHlo.after hostOps0 (W0 m ρ c) (Proc.devRef .tc main_v3) = _
  after_results
  rfl

theorem W1_v6 : W1 m ρ c (Proc.devRef .tc main_v6) = Graph.dst (m ((c : Thread nD τ).loc main_arg1)) := by
  show StableHlo.after hostOps0 (W0 m ρ c) (Proc.devRef .tc main_v6) = _
  after_results
  rfl

/-- The degree of every node is positive, as a mask. -/
theorem W1_v12 : W1 m ρ c (Proc.devRef .tc main_v12)
    = cmpf (F := Ideal) .ogt (Graph.deg (m ((c : Thread nD τ).loc main_arg1)))
        (broadcastInDim Graph.SN ![] (by decide) (constant Graph.S0 .f32 0x00000000#32)) := by
  show StableHlo.after hostOps0 (W0 m ρ c) (Proc.devRef .tc main_v12) = _
  after_results
  rfl

theorem W1_v13 : W1 m ρ c (Proc.devRef .tc main_v13) = Host.rsqrt (Graph.deg (m ((c : Thread nD τ).loc main_arg1))) := by
  show StableHlo.after hostOps0 (W0 m ρ c) (Proc.devRef .tc main_v13) = _
  after_results
  rfl

theorem W1_cst_2 : W1 m ρ c (Proc.devRef .tc main_cst_2) = constant (F := Ideal) Graph.S0 .f32 0x00000000#32 := by
  show StableHlo.after hostOps0 (W0 m ρ c) (Proc.devRef .tc main_cst_2) = _
  after_results

end Cert.KernelIdeal.Fold

end
-- ==== Proof.GraphFold2.lean ====
/-
  The graph side of the idealized kernel program, second stretch: the outlined selection. Where a node's degree is
  positive the stretch keeps its power -1/2, elsewhere it puts zero: `Graph.dinv`. It writes nothing else, so the
  edge sources and destinations and every argument array keep their contents.
-/
import proofs.«110061_j30425548325001_1_alg».proof.Proof.Gen.KernelIdeal.Frame
import proofs.«110061_j30425548325001_1_alg».proof.Proof.Graph
import proofs.«110061_j30425548325001_1_alg».proof.Proof.Layers
import proofs.«110061_j30425548325001_1_alg».proof.Proof.GraphFold1
import Idealize.ShloMosaic.Lib.StableHlo.Run

noncomputable section

namespace Cert.KernelIdeal.Fold

open Cert.KernelIdeal Cert.KernelIdeal.Gen Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

/-! ## What the selection does not write -/
theorem W2_v3 : W2 m ρ c (Proc.devRef .tc main_v3) = W1 m ρ c (Proc.devRef .tc main_v3) := by
  show StableHlo.after hostOps0_1 (W1 m ρ c) (Proc.devRef .tc main_v3) = _
  after_results
theorem W2_v6 : W2 m ρ c (Proc.devRef .tc main_v6) = W1 m ρ c (Proc.devRef .tc main_v6) := by
  show StableHlo.after hostOps0_1 (W1 m ρ c) (Proc.devRef .tc main_v6) = _
  after_results
theorem W2_arg0 : W2 m ρ c (Proc.devRef .tc main_arg0) = W1 m ρ c (Proc.devRef .tc main_arg0) := by
  show StableHlo.after hostOps0_1 (W1 m ρ c) (Proc.devRef .tc main_arg0) = _
  after_results
theorem W2_arg1 : W2 m ρ c (Proc.devRef .tc main_arg1) = W1 m ρ c (Proc.devRef .tc main_arg1) := by
  show StableHlo.after hostOps0_1 (W1 m ρ c) (Proc.devRef .tc main_arg1) = _
  after_results
theorem W2_arg2 : W2 m ρ c (Proc.devRef .tc main_arg2) = W1 m ρ c (Proc.devRef .tc main_arg2) := by
  show StableHlo.after hostOps0_1 (W1 m ρ c) (Proc.devRef .tc main_arg2) = _
  after_results
theorem W2_arg3 : W2 m ρ c (Proc.devRef .tc main_arg3) = W1 m ρ c (Proc.devRef .tc main_arg3) := by
  show StableHlo.after hostOps0_1 (W1 m ρ c) (Proc.devRef .tc main_arg3) = _
  after_results
theorem W2_arg4 : W2 m ρ c (Proc.devRef .tc main_arg4) = W1 m ρ c (Proc.devRef .tc main_arg4) := by
  show StableHlo.after hostOps0_1 (W1 m ρ c) (Proc.devRef .tc main_arg4) = _
  after_results
theorem W2_arg5 : W2 m ρ c (Proc.devRef .tc main_arg5) = W1 m ρ c (Proc.devRef .tc main_arg5) := by
  show StableHlo.after hostOps0_1 (W1 m ρ c) (Proc.devRef .tc main_arg5) = _
  after_results
theorem W2_arg6 : W2 m ρ c (Proc.devRef .tc main_arg6) = W1 m ρ c (Proc.devRef .tc main_arg6) := by
  show StableHlo.after hostOps0_1 (W1 m ρ c) (Proc.devRef .tc main_arg6) = _
  after_results
theorem W2_arg7 : W2 m ρ c (Proc.devRef .tc main_arg7) = W1 m ρ c (Proc.devRef .tc main_arg7) := by
  show StableHlo.after hostOps0_1 (W1 m ρ c) (Proc.devRef .tc main_arg7) = _
  after_results

/-! ## What it writes -/

set_option maxHeartbeats 4000000 in
/-- degree^(-1/2) where the degree is positive, zero elsewhere. The selection's operands and result pass through
    re-typings of the buffers that change nothing. -/
theorem W2_v14 : W2 m ρ c (Proc.devRef .tc main_v14) = Graph.dinv (m ((c : Thread nD τ).loc main_arg1)) := by
  show StableHlo.after hostOps0_1 (W1 m ρ c) (Proc.devRef .tc main_v14) = _
  have h12 := W1_v12 m ρ c
  have h13 := W1_v13 m ρ c
  have hc := W1_cst_2 m ρ c
  generalize W1 m ρ c = V1 at h12 h13 hc ⊢
  after_results_simp
  simp only [TRef.toBuf, TRef.ofBuf, cast_eq, h12, h13, hc]
  rfl

end Cert.KernelIdeal.Fold

end
-- ==== Proof.KernelFoldA.lean ====
/-
  The graph side of the idealized kernel program, read off its host operations. Before the first region the program
  computes, from the edge list alone, the sources and destinations of the edges with every node's loop edge appended
  and the weight of every edge: dinv(source) · dinv(destination), where dinv is degree^(-1/2) on the nodes of positive
  degree and zero elsewhere. At the first region's entry those three buffers hold `Graph.src`, `Graph.dst` and
  `Graph.norm` of the edge list at launch, and every argument array still holds its launch contents. The third
  stretch of host operations reads the edge sources and destinations and dinv, left by the first two stretches, and
  writes the weights; it writes none of the other buffers named here.
-/
import proofs.«110061_j30425548325001_1_alg».proof.Proof.Gen.KernelIdeal.Frame
import proofs.«110061_j30425548325001_1_alg».proof.Proof.Graph
import proofs.«110061_j30425548325001_1_alg».proof.Proof.Layers
import proofs.«110061_j30425548325001_1_alg».proof.Proof.GraphFold2
import Idealize.ShloMosaic.Lib.StableHlo.Run

noncomputable section

namespace Cert.KernelIdeal.Fold

open Cert.KernelIdeal Cert.KernelIdeal.Gen Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

/-! ## Through the third stretch: what it does not write -/
theorem W3_v3_keep : W3 m ρ c (Proc.devRef .tc main_v3) = W2 m ρ c (Proc.devRef .tc main_v3) := by
  show StableHlo.after hostOps0_2 (W2 m ρ c) (Proc.devRef .tc main_v3) = _
  after_results
theorem W3_v6_keep : W3 m ρ c (Proc.devRef .tc main_v6) = W2 m ρ c (Proc.devRef .tc main_v6) := by
  show StableHlo.after hostOps0_2 (W2 m ρ c) (Proc.devRef .tc main_v6) = _
  after_results
theorem W3_arg0_keep : W3 m ρ c (Proc.devRef .tc main_arg0) = W2 m ρ c (Proc.devRef .tc main_arg0) := by
  show StableHlo.after hostOps0_2 (W2 m ρ c) (Proc.devRef .tc main_arg0) = _
  after_results
theorem W3_arg1_keep : W3 m ρ c (Proc.devRef .tc main_arg1) = W2 m ρ c (Proc.devRef .tc main_arg1) := by
  show StableHlo.after hostOps0_2 (W2 m ρ c) (Proc.devRef .tc main_arg1) = _
  after_results
theorem W3_arg2_keep : W3 m ρ c (Proc.devRef .tc main_arg2) = W2 m ρ c (Proc.devRef .tc main_arg2) := by
  show StableHlo.after hostOps0_2 (W2 m ρ c) (Proc.devRef .tc main_arg2) = _
  after_results
theorem W3_arg3_keep : W3 m ρ c (Proc.devRef .tc main_arg3) = W2 m ρ c (Proc.devRef .tc main_arg3) := by
  show StableHlo.after hostOps0_2 (W2 m ρ c) (Proc.devRef .tc main_arg3) = _
  after_results
theorem W3_arg4_keep : W3 m ρ c (Proc.devRef .tc main_arg4) = W2 m ρ c (Proc.devRef .tc main_arg4) := by
  show StableHlo.after hostOps0_2 (W2 m ρ c) (Proc.devRef .tc main_arg4) = _
  after_results
theorem W3_arg5_keep : W3 m ρ c (Proc.devRef .tc main_arg5) = W2 m ρ c (Proc.devRef .tc main_arg5) := by
  show StableHlo.after hostOps0_2 (W2 m ρ c) (Proc.devRef .tc main_arg5) = _
  after_results
theorem W3_arg6_keep : W3 m ρ c (Proc.devRef .tc main_arg6) = W2 m ρ c (Proc.devRef .tc main_arg6) := by
  show StableHlo.after hostOps0_2 (W2 m ρ c) (Proc.devRef .tc main_arg6) = _
  after_results
theorem W3_arg7_keep : W3 m ρ c (Proc.devRef .tc main_arg7) = W2 m ρ c (Proc.devRef .tc main_arg7) := by
  show StableHlo.after hostOps0_2 (W2 m ρ c) (Proc.devRef .tc main_arg7) = _
  after_results

/-! ## At the first region's entry -/

theorem W3_v3 : W3 m ρ c (Proc.devRef .tc main_v3) = Graph.src (m ((c : Thread nD τ).loc main_arg1)) :=
  (W3_v3_keep m ρ c).trans ((W2_v3 m ρ c).trans (W1_v3 m ρ c))

theorem W3_v6 : W3 m ρ c (Proc.devRef .tc main_v6) = Graph.dst (m ((c : Thread nD τ).loc main_arg1)) :=
  (W3_v6_keep m ρ c).trans ((W2_v6 m ρ c).trans (W1_v6 m ρ c))

theorem W3_arg0 : W3 m ρ c (Proc.devRef .tc main_arg0) = m ((c : Thread nD τ).loc main_arg0) :=
  (W3_arg0_keep m ρ c).trans ((W2_arg0 m ρ c).trans (W1_arg0 m ρ c))

theorem W3_arg1 : W3 m ρ c (Proc.devRef .tc main_arg1) = m ((c : Thread nD τ).loc main_arg1) :=
  (W3_arg1_keep m ρ c).trans ((W2_arg1 m ρ c).trans (W1_arg1 m ρ c))

theorem W3_arg2 : W3 m ρ c (Proc.devRef .tc main_arg2) = m ((c : Thread nD τ).loc main_arg2) :=
  (W3_arg2_keep m ρ c).trans ((W2_arg2 m ρ c).trans (W1_arg2 m ρ c))

theorem W3_arg3 : W3 m ρ c (Proc.devRef .tc main_arg3) = m ((c : Thread nD τ).loc main_arg3) :=
  (W3_arg3_keep m ρ c).trans ((W2_arg3 m ρ c).trans (W1_arg3 m ρ c))

theorem W3_arg4 : W3 m ρ c (Proc.devRef .tc main_arg4) = m ((c : Thread nD τ).loc main_arg4) :=
  (W3_arg4_keep m ρ c).trans ((W2_arg4 m ρ c).trans (W1_arg4 m ρ c))

theorem W3_arg5 : W3 m ρ c (Proc.devRef .tc main_arg5) = m ((c : Thread nD τ).loc main_arg5) :=
  (W3_arg5_keep m ρ c).trans ((W2_arg5 m ρ c).trans (W1_arg5 m ρ c))

theorem W3_arg6 : W3 m ρ c (Proc.devRef .tc main_arg6) = m ((c : Thread nD τ).loc main_arg6) :=
  (W3_arg6_keep m ρ c).trans ((W2_arg6 m ρ c).trans (W1_arg6 m ρ c))

theorem W3_arg7 : W3 m ρ c (Proc.devRef .tc main_arg7) = m ((c : Thread nD τ).loc main_arg7) :=
  (W3_arg7_keep m ρ c).trans ((W2_arg7 m ρ c).trans (W1_arg7 m ρ c))

set_option maxHeartbeats 2000000 in
/-- The weight of every edge: dinv of its source times dinv of its destination. -/
theorem W3_v29 : W3 m ρ c (Proc.devRef .tc main_v29) = Graph.norm (m ((c : Thread nD τ).loc main_arg1)) := by
  show StableHlo.after hostOps0_2 (W2 m ρ c) (Proc.devRef .tc main_v29) = _
  have h14 := W2_v14 m ρ c
  have h3 := (W2_v3 m ρ c).trans (W1_v3 m ρ c)
  have h6 := (W2_v6 m ρ c).trans (W1_v6 m ρ c)
  generalize W2 m ρ c = V2 at h14 h3 h6 ⊢
  after_results
  rw [h14, h3, h6]
  rfl

end Cert.KernelIdeal.Fold

end
-- ==== Proof.Region0.lean ====
/-
  The first dense step, as one function of whole arrays.

  The 100000×128 array X is cut into 20 blocks of 5000 rows; at each block the step multiplies the block by the whole
  128×64 array W and writes the 5000×64 product over the same rows of the output. An entry of a product reads one
  row of its left operand, so row r of a block's product is row r of the product of X with W, taken at the row of
  X the block's row r sits at. The 20 blocks cover every row of the output (row r lies in block r / 5000), so the
  output array is the product of X with W.
-/
import proofs.«110061_j30425548325001_1_alg».proof.Proof.Gen.KernelIdeal.Frame
import proofs.«110061_j30425548325001_1_alg».proof.Proof.Layers
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd

variable (V : (c : Dev nD) → (b : Ref sig .tc) → Buf (Elt Ideal) ((c : Thread nD τ).loc b))

/-- The body's value: both operands narrowed and the product accumulated into zeros is the plain product of the
    two loaded blocks. -/
theorem pay0 (x0 : Vec Ideal S5000x128 .f32) (x1 : Vec Ideal S128x64 .f32) :
    k0_pay1 x0 x1 = matProd x0 x1 :=
  Cert.Gcn.body_matProd dot_S5000x128_S128x64_S5000x64_1_0_0_1_n_n rfl rfl rfl rfl rfl rfl x0 x1 bitsLt_bf16_f32

/-- The index maps over the 20 grid points: the left operand's block of rows moves with the output's, both at
    column block 0; the right operand is always at block (0, 0). -/
theorem idx_facts0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 blocks of rows of the output is some point's. -/
theorem idx_onto0 : ∀ q : Fin 20, ∃ t : Fin cfg0.N, win0_2.index t = ![q.val, 0] :=
  (by decide +kernel : ∀ q : Fin 20, ∃ t : Fin grid0.N, win0_2.index t = ![q.val, 0])

/-- The right operand's block is its whole array at every point. -/
theorem iblk0_1 (c : Dev nD) (t : Fin cfg0.N) : iblk0 V c 1 t = V c main_arg2 := by
  obtain ⟨-, -, e2, e3, -, -⟩ := idx_facts0 t
  funext y
  show V c main_arg2 (((cfg0.win 1).blk t).view.emb y) = V c main_arg2 y
  have h : ((cfg0.win 1).blk t).view.emb y = (y : S128x64.Idx) := by
    funext a; apply Fin.ext
    match a with
    | ⟨0, _⟩ => show win0_1.index t (0 : Fin 2) * 128 + 1 * (y 0).val = (y 0).val; omega
    | ⟨1, _⟩ => show win0_1.index t (1 : Fin 2) * 64 + 1 * (y 1).val = (y 1).val; omega
  rw [h]

/-- What point t writes back is block t of the product of the two whole arrays: an entry of the block product
    reads one row of the left operand's block, which is the row of the whole array the output block's row sits at. -/
theorem flushed0 (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero Cert.Lib.RowBlocks.zero_offset2]
  simp only [View.ld_unit_zero (S := S5000x128) Cert.Lib.RowBlocks.zero_offset2,
    View.ld_unit_zero (S := S128x64) Cert.Lib.RowBlocks.zero_offset2]
  rw [pay0, iblk0_1]
  obtain ⟨e0, e1, -, -, e4, -⟩ := idx_facts0 t
  funext y
  show matProd (iblk0 V c 0 t) (V c main_arg2) y
    = matProd (V c main_arg0) (V c main_arg2) (((cfg0.win 2).blk t).view.emb y)
  refine Cert.Lib.RowBlocks.matProd_rows (m := 100000) (m' := 5000) (k := 128) (n := 64)
    (V c main_arg0) (iblk0 V c 0 t) (V c main_arg2) y (((cfg0.win 2).blk t).view.emb y) (fun q => ?_) ?_
  · show V c main_arg0 (((cfg0.win 0).blk t).view.emb (ix2 (⟨(y 0).val, idx2_lt0 y⟩ : Fin 5000) q)) = _
    refine congrArg (V c main_arg0) ?_
    funext a; apply Fin.ext
    match a with
    | ⟨0, _⟩ =>
      show win0_0.index t (0 : Fin 2) * 5000 + 1 * (y 0).val = win0_2.index t (0 : Fin 2) * 5000 + 1 * (y 0).val
      omega
    | ⟨1, _⟩ =>
      show win0_0.index t (1 : Fin 2) * 128 + 1 * q.val = q.val
      omega
  · show (y 1).val = win0_2.index t (1 : Fin 2) * 64 + 1 * (y 1).val
    omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- Row r of the output is in the block of the point whose block of rows is r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The output array after the region is the product of the two input arrays as the region finds them. -/
theorem region0 (c : Dev nD) :
    (Gen.dat0 (F := Ideal) V c).arrAt 2 cfg0.N = Cert.Lib.MatProd.matProd (V c main_arg0) (V c main_arg2) :=
  (dat0 V c).arrAt_eq_of_cover 2 (matProd (V c main_arg0) (V c main_arg2)) (fun t _ => flushed0 V c t) cover0

end Cert.KernelIdeal.RegionValue

end
-- ==== Proof.Region1.lean ====
/-
  The second dense step, as one function of whole arrays.

  The 100000×64 array A is cut into 20 blocks of 5000 rows; at each block the step adds the 1×64 bias row b to
  every row of the block, clamps below at zero, multiplies by the whole 64×64 array W and writes the 5000×64 result
  over the same rows of the output. An entry of that result reads one row of the block, so row r of a block's
  result is the same function of the whole A, taken at the row of A the block's row r sits at. The 20 blocks cover
  every row of the output (row r lies in block r / 5000), so the output array is `hidden A b W`.
-/
import proofs.«110061_j30425548325001_1_alg».proof.Proof.Gen.KernelIdeal.Frame
import proofs.«110061_j30425548325001_1_alg».proof.Proof.Layers
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd

variable (V : (c : Dev nD) → (b : Ref sig .tc) → Buf (Elt Ideal) ((c : Thread nD τ).loc b))

/-- The body's value: the bias row added to every row of the loaded block of rows, the clamp at zero, both operands
    narrowed and the product accumulated into zeros is `hidden` of the three loaded blocks. -/
theorem pay1 (x0 : Vec Ideal S5000x64 .f32) (x1 : Vec Ideal S1x64 .f32) (x2 : Vec Ideal S64x64 .f32) :
    k1_pay1 x0 x1 x2 = Cert.Gcn.hidden x0 x1 x2 :=
  Cert.Gcn.body_hidden dot_S5000x64_S64x64_S5000x64_1_0_0_1_n_n rfl rfl rfl rfl rfl rfl x0 x1 x2
    shapeCasts_S5000x64_S5000x64 shapeCasts_S1x64_S1x64 broadcasts_S1x64_S5000x64 bitsLt_bf16_f32

/-- The index maps over the 20 grid points: the input's block of rows moves with the output's, both at column
    block 0; the bias row and the weight array are always at block (0, 0). -/
theorem idx_facts1 : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every one of the 20 blocks of rows of the output is some point's. -/
theorem idx_onto1 : ∀ q : Fin 20, ∃ t : Fin cfg1.N, win1_3.index t = ![q.val, 0] :=
  (by decide +kernel : ∀ q : Fin 20, ∃ t : Fin grid1.N, win1_3.index t = ![q.val, 0])

/-- The bias row's block is its whole array at every point. -/
theorem iblk1_1 (c : Dev nD) (t : Fin cfg1.N) : iblk1 V c 1 t = V c main_v44 := by
  obtain ⟨-, -, e2, e3, -, -, -, -⟩ := idx_facts1 t
  funext y
  show V c main_v44 (((cfg1.win 1).blk t).view.emb y) = V c main_v44 y
  have h : ((cfg1.win 1).blk t).view.emb y = (y : S1x64.Idx) := by
    funext a; apply Fin.ext
    match a with
    | ⟨0, _⟩ => show win1_1.index t (0 : Fin 2) * 1 + 1 * (y 0).val = (y 0).val; omega
    | ⟨1, _⟩ => show win1_1.index t (1 : Fin 2) * 64 + 1 * (y 1).val = (y 1).val; omega
  rw [h]

/-- The weight array's block is its whole array at every point. -/
theorem iblk1_2 (c : Dev nD) (t : Fin cfg1.N) : iblk1 V c 2 t = V c main_arg4 := by
  obtain ⟨-, -, -, -, e4, e5, -, -⟩ := idx_facts1 t
  funext y
  show V c main_arg4 (((cfg1.win 2).blk t).view.emb y) = V c main_arg4 y
  have h : ((cfg1.win 2).blk t).view.emb y = (y : S64x64.Idx) := by
    funext a; apply Fin.ext
    match a with
    | ⟨0, _⟩ => show win1_2.index t (0 : Fin 2) * 64 + 1 * (y 0).val = (y 0).val; omega
    | ⟨1, _⟩ => show win1_2.index t (1 : Fin 2) * 64 + 1 * (y 1).val = (y 1).val; omega
  rw [h]

/-- What point t writes back is block t of `hidden` of the three whole arrays: an entry of `hidden` of a block of
    rows reads one row of that block, which is the row of the whole array the output block's row sits at. -/
theorem flushed1 (c : Dev nD) (t : Fin cfg1.N) :
    (dat1 V c).flushed 3 t
      = ((cfg1.win 3).blk t).view.read (Elt Ideal)
          (Cert.Gcn.hidden (V c main_v43) (V c main_v44) (V c main_arg4)) := by
  show (cfg1.win 3).cut (grid1.coords t) ((dat1 V c).after 3 t) = _
  rw [after1_3]
  unfold out1_3
  rw [View.canon_unit_zero Cert.Lib.RowBlocks.zero_offset2]
  simp only [View.ld_unit_zero (S := S5000x64) Cert.Lib.RowBlocks.zero_offset2,
    View.ld_unit_zero (S := S1x64) Cert.Lib.RowBlocks.zero_offset2,
    View.ld_unit_zero (S := S64x64) Cert.Lib.RowBlocks.zero_offset2]
  rw [pay1, iblk1_1, iblk1_2]
  obtain ⟨e0, e1, -, -, -, -, e6, -⟩ := idx_facts1 t
  funext y
  show Cert.Gcn.hidden (iblk1 V c 0 t) (V c main_v44) (V c main_arg4) y
    = Cert.Gcn.hidden (V c main_v43) (V c main_v44) (V c main_arg4) (((cfg1.win 3).blk t).view.emb y)
  refine Cert.Gcn.hidden_rows (r := 100000) (r' := 5000) (k := 64) (n := 64)
    (V c main_v43) (iblk1 V c 0 t) (V c main_v44) (V c main_arg4) y (((cfg1.win 3).blk t).view.emb y)
    (fun q => ?_) ?_
  · show V c main_v43 (((cfg1.win 0).blk t).view.emb (ix2 (⟨(y 0).val, idx2_lt0 y⟩ : Fin 5000) q)) = _
    refine congrArg (V c main_v43) ?_
    funext a; apply Fin.ext
    match a with
    | ⟨0, _⟩ =>
      show win1_0.index t (0 : Fin 2) * 5000 + 1 * (y 0).val = win1_3.index t (0 : Fin 2) * 5000 + 1 * (y 0).val
      omega
    | ⟨1, _⟩ =>
      show win1_0.index t (1 : Fin 2) * 64 + 1 * q.val = q.val
      omega
  · show (y 1).val = win1_3.index t (1 : Fin 2) * 64 + 1 * (y 1).val
    omega

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v45).slice (win1_3.rect t)).set ↔ _
  rw [View.set_slice_whole, Rect.mem_set_unit]
  exact Iff.rfl

/-- Row r of the output is in the block of the point whose block of rows is r / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- The output array after the region is `hidden` of the three input arrays as the region finds them. -/
theorem region1 (c : Dev nD) :
    (Gen.dat1 (F := Ideal) V c).arrAt 3 cfg1.N
      = Cert.Gcn.hidden (V c main_v43) (V c main_v44) (V c main_arg4) :=
  (dat1 V c).arrAt_eq_of_cover 3 (Cert.Gcn.hidden (V c main_v43) (V c main_v44) (V c main_arg4))
    (fun t _ => flushed1 V c t) cover1

end Cert.KernelIdeal.RegionValue

end
-- ==== Proof.Region2.lean ====
/-
  The third dense step, as one function of whole arrays.

  The 100000×64 array A is cut into 20 blocks of 5000 rows; at each block the step adds the 1×64 bias row b to
  every row of the block, clamps below at zero, multiplies by the whole 64×16 array W, adds the 1×16 row c to every
  row of the product and writes the 5000×16 result over the same rows of the output. An entry of that result reads
  one row of the block, so row r of a block's result is the same function of the whole A, taken at the row of A
  the block's row r sits at. The 20 blocks cover every row of the output (row r lies in block r / 5000), so the
  output array is `head A b W c`.
-/
import proofs.«110061_j30425548325001_1_alg».proof.Proof.Gen.KernelIdeal.Frame
import proofs.«110061_j30425548325001_1_alg».proof.Proof.Layers
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.MatProd

variable (V : (c : Dev nD) → (b : Ref sig .tc) → Buf (Elt Ideal) ((c : Thread nD τ).loc b))

/-- The body's value: the bias row added to every row of the loaded block of rows, the clamp at zero, both operands
    narrowed, the product accumulated into zeros and the second row added to every row of the product is `head` of
    the four loaded blocks. -/
theorem pay2 (x0 : Vec Ideal S5000x64 .f32) (x1 : Vec Ideal S1x64 .f32) (x2 : Vec Ideal S64x16 .f32)
    (x3 : Vec Ideal S1x16 .f32) : k2_pay1 x0 x1 x2 x3 = Cert.Gcn.head x0 x1 x2 x3 :=
  Cert.Gcn.body_head dot_S5000x64_S64x16_S5000x16_1_0_0_1_n_n rfl rfl rfl rfl rfl rfl x0 x1 x2 x3
    shapeCasts_S5000x64_S5000x64 shapeCasts_S1x64_S1x64 broadcasts_S1x64_S5000x64 bitsLt_bf16_f32
    shapeCasts_S1x16_S1x16 broadcasts_S1x16_S5000x16

/-- The index maps over the 20 grid points: the input's block of rows moves with the output's, both at column
    block 0; the two bias rows and the weight array are always at block (0, 0). -/
theorem idx_facts2 : ∀ t : Fin cfg2.N,
    win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 19 :=
  (by decide +kernel : ∀ t : Fin grid2.N, _)

/-- Every one of the 20 blocks of rows of the output is some point's. -/
theorem idx_onto2 : ∀ q : Fin 20, ∃ t : Fin cfg2.N, win2_4.index t = ![q.val, 0] :=
  (by decide +kernel : ∀ q : Fin 20, ∃ t : Fin grid2.N, win2_4.index t = ![q.val, 0])

/-- The first bias row's block is its whole array at every point. -/
theorem iblk2_1 (c : Dev nD) (t : Fin cfg2.N) : iblk2 V c 1 t = V c main_v59 := by
  obtain ⟨-, -, e2, e3, -, -, -, -, -, -⟩ := idx_facts2 t
  funext y
  show V c main_v59 (((cfg2.win 1).blk t).view.emb y) = V c main_v59 y
  have h : ((cfg2.win 1).blk t).view.emb y = (y : S1x64.Idx) := by
    funext a; apply Fin.ext
    match a with
    | ⟨0, _⟩ => show win2_1.index t (0 : Fin 2) * 1 + 1 * (y 0).val = (y 0).val; omega
    | ⟨1, _⟩ => show win2_1.index t (1 : Fin 2) * 64 + 1 * (y 1).val = (y 1).val; omega
  rw [h]

/-- The weight array's block is its whole array at every point. -/
theorem iblk2_2 (c : Dev nD) (t : Fin cfg2.N) : iblk2 V c 2 t = V c main_arg6 := by
  obtain ⟨-, -, -, -, e4, e5, -, -, -, -⟩ := idx_facts2 t
  funext y
  show V c main_arg6 (((cfg2.win 2).blk t).view.emb y) = V c main_arg6 y
  have h : ((cfg2.win 2).blk t).view.emb y = (y : S64x16.Idx) := by
    funext a; apply Fin.ext
    match a with
    | ⟨0, _⟩ => show win2_2.index t (0 : Fin 2) * 64 + 1 * (y 0).val = (y 0).val; omega
    | ⟨1, _⟩ => show win2_2.index t (1 : Fin 2) * 16 + 1 * (y 1).val = (y 1).val; omega
  rw [h]

/-- The second bias row's block is its whole array at every point. -/
theorem iblk2_3 (c : Dev nD) (t : Fin cfg2.N) : iblk2 V c 3 t = V c main_v60 := by
  obtain ⟨-, -, -, -, -, -, e6, e7, -, -⟩ := idx_facts2 t
  funext y
  show V c main_v60 (((cfg2.win 3).blk t).view.emb y) = V c main_v60 y
  have h : ((cfg2.win 3).blk t).view.emb y = (y : S1x16.Idx) := by
    funext a; apply Fin.ext
    match a with
    | ⟨0, _⟩ => show win2_3.index t (0 : Fin 2) * 1 + 1 * (y 0).val = (y 0).val; omega
    | ⟨1, _⟩ => show win2_3.index t (1 : Fin 2) * 16 + 1 * (y 1).val = (y 1).val; omega
  rw [h]

/-- What point t writes back is block t of `head` of the four whole arrays: an entry of `head` of a block of rows
    reads one row of that block, which is the row of the whole array the output block's row sits at. -/
theorem flushed2 (c : Dev nD) (t : Fin cfg2.N) :
    (dat2 V c).flushed 4 t
      = ((cfg2.win 4).blk t).view.read (Elt Ideal)
          (Cert.Gcn.head (V c main_v58) (V c main_v59) (V c main_arg6) (V c main_v60)) := by
  show (cfg2.win 4).cut (grid2.coords t) ((dat2 V c).after 4 t) = _
  rw [after2_4]
  unfold out2_4
  rw [View.canon_unit_zero Cert.Lib.RowBlocks.zero_offset2]
  simp only [View.ld_unit_zero (S := S5000x64) Cert.Lib.RowBlocks.zero_offset2,
    View.ld_unit_zero (S := S1x64) Cert.Lib.RowBlocks.zero_offset2,
    View.ld_unit_zero (S := S64x16) Cert.Lib.RowBlocks.zero_offset2,
    View.ld_unit_zero (S := S1x16) Cert.Lib.RowBlocks.zero_offset2]
  rw [pay2, iblk2_1, iblk2_2, iblk2_3]
  obtain ⟨e0, e1, -, -, -, -, -, -, e8, -⟩ := idx_facts2 t
  funext y
  show Cert.Gcn.head (iblk2 V c 0 t) (V c main_v59) (V c main_arg6) (V c main_v60) y
    = Cert.Gcn.head (V c main_v58) (V c main_v59) (V c main_arg6) (V c main_v60)
        (((cfg2.win 4).blk t).view.emb y)
  refine Cert.Gcn.head_rows (r := 100000) (r' := 5000) (k := 64) (n := 16)
    (V c main_v58) (iblk2 V c 0 t) (V c main_v59) (V c main_arg6) (V c main_v60) y
    (((cfg2.win 4).blk t).view.emb y) (fun q => ?_) ?_
  · show V c main_v58 (((cfg2.win 0).blk t).view.emb (ix2 (⟨(y 0).val, idx2_lt0 y⟩ : Fin 5000) q)) = _
    refine congrArg (V c main_v58) ?_
    funext a; apply Fin.ext
    match a with
    | ⟨0, _⟩ =>
      show win2_0.index t (0 : Fin 2) * 5000 + 1 * (y 0).val = win2_4.index t (0 : Fin 2) * 5000 + 1 * (y 0).val
      omega
    | ⟨1, _⟩ =>
      show win2_0.index t (1 : Fin 2) * 64 + 1 * q.val = q.val
      omega
  · show (y 1).val = win2_4.index t (1 : Fin 2) * 16 + 1 * (y 1).val
    omega

/-- An index of the output array is in point t's block iff each coordinate is in the block's range on its axis. -/
theorem mem_blk2 (t : Fin cfg2.N) (i : S100000x16.Idx) :
    i ∈ ((cfg2.win 4).blk t).view.set ↔ ∀ a : Fin 2, win2_4.index t a * S5000x16.size a ≤ (i a).val
      ∧ (i a).val < win2_4.index t a * S5000x16.size a + S5000x16.size a := by
  show i ∈ ((View.whole main_v61).slice (win2_4.rect t)).set ↔ _
  rw [View.set_slice_whole, Rect.mem_set_unit]
  exact Iff.rfl

/-- Row r of the output is in the block of the point whose block of rows is r / 5000. -/
theorem cover2 (i : S100000x16.Idx) :
    ∃ t : Fin cfg2.N, (cfg2.win 4).flush t = true ∧ i ∈ ((cfg2.win 4).blk t).view.set := by
  have hi0 : (i 0).val < 100000 := (i 0).isLt
  have hi1 : (i 1).val < 16 := (i 1).isLt
  obtain ⟨t, ht⟩ := idx_onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 16 ≤ (i 1).val ∧ (i 1).val < win2_4.index t (1 : Fin 2) * 16 + 16
    omega

/-- The output array after the region is `head` of the four input arrays as the region finds them. -/
theorem region2 (c : Dev nD) :
    (Gen.dat2 (F := Ideal) V c).arrAt 4 cfg2.N
      = Cert.Gcn.head (V c main_v58) (V c main_v59) (V c main_arg6) (V c main_v60) :=
  (dat2 V c).arrAt_eq_of_cover 4
    (Cert.Gcn.head (V c main_v58) (V c main_v59) (V c main_arg6) (V c main_v60))
    (fun t _ => flushed2 V c t) cover2

end Cert.KernelIdeal.RegionValue

end
-- ==== Proof.KernelFoldB.lean ====
/-
  The program's result array, read back through its eight segments.

  The program is three stretches of host operations, each followed by a region of the tensor core: the first
  stretch reads the graph off the edge list (sources, destinations, edge weights), the first region multiplies the
  node features by W1; the second stretch is one round of message passing over that product and re-shapes b1 into a
  row, the second region adds the row, clamps at zero and multiplies by W2; the third stretch is a second round of
  message passing and re-shapes b2 and bl, the third region adds b2, clamps at zero, multiplies by Wl and adds bl.

  The contents of the buffers at each boundary are a fold of these segments over the launch memory. Here the fold is
  read, boundary by boundary, at the few buffers the later segments read: a region leaves its output array at what
  its blocks compute (the region's own value, stated elsewhere) and every other buffer as it found it; a stretch of
  host operations leaves each buffer it writes at its operation's value of the buffers it reads, and the others as
  they were. The host operations of a round of message passing, in the program's spelling, are the round of message
  passing of Graph.lean letter for letter. At the last boundary the result array holds the head of the second
  round of the hidden layer of the first round of the first product: the network, by definition.
-/
import proofs.«110061_j30425548325001_1_alg».proof.Proof.KernelFoldA
import proofs.«110061_j30425548325001_1_alg».proof.Proof.Region0
import proofs.«110061_j30425548325001_1_alg».proof.Proof.Region1
import proofs.«110061_j30425548325001_1_alg».proof.Proof.Region2

noncomputable section

namespace Cert.KernelIdeal.Fold

open Cert.KernelIdeal Cert.KernelIdeal.Gen Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

/-! ## One round of message passing in the program's spelling -/

/-- The host operations between two regions, as one function of the four arrays they read: the sources s, the
    destinations d, the weights w and the node array H. -/
abbrev kAgg (s d : IVec S1700000 32) (w : FVec Ideal S1700000 .f32) (H : FVec Ideal S100000x64 .f32) :
    FVec Ideal S100000x64 .f32 :=
  Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 d) (mulf (F := Ideal) (Host.gather gather_S100000x64_S1700000x1_S1700000x64_1_0_n_n_0_1_164 H (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) (broadcastInDim S1700000x64 ![0, 1] bcast_S1700000x1_S1700000x64_0_1 (broadcastInDim S1700000x1 ![0] bcast_S1700000_S1700000x1_0 w)))

theorem kAgg_eq (s d : IVec S1700000 32) (w : FVec Ideal S1700000 .f32) (H : FVec Ideal S100000x64 .f32) :
    kAgg s d w H = Graph.agg s d w H := rfl

/-! ## Equal arguments, equal results -/

theorem agg_args {s s' d d' : IVec S1700000 32} {w w' : FVec Ideal S1700000 .f32} {H H' : FVec Ideal S100000x64 .f32}
    (hs : s = s') (hd : d = d') (hw : w = w') (hH : H = H') : Graph.agg s d w H = Graph.agg s' d' w' H' := by
  rw [hs, hd, hw, hH]

theorem matProd_args {r k n : Nat} {A A' : (⟨2, ![r, k]⟩ : Shape).Idx → EReal} {B B' : (⟨2, ![k, n]⟩ : Shape).Idx → EReal}
    (hA : A = A') (hB : B = B') : Cert.Lib.MatProd.matProd A B = Cert.Lib.MatProd.matProd A' B' := by rw [hA, hB]

theorem hidden_args {r k n : Nat} {A A' : (⟨2, ![r, k]⟩ : Shape).Idx → EReal} {b b' : (⟨2, ![1, k]⟩ : Shape).Idx → EReal}
    {W W' : (⟨2, ![k, n]⟩ : Shape).Idx → EReal} (hA : A = A') (hb : b = b') (hW : W = W') :
    hidden A b W = hidden A' b' W' := by rw [hA, hb, hW]

theorem head_args {r k n : Nat} {A A' : (⟨2, ![r, k]⟩ : Shape).Idx → EReal} {b b' : (⟨2, ![1, k]⟩ : Shape).Idx → EReal}
    {W W' : (⟨2, ![k, n]⟩ : Shape).Idx → EReal} {d d' : (⟨2, ![1, n]⟩ : Shape).Idx → EReal}
    (hA : A = A') (hb : b = b') (hW : W = W') (hd : d = d') : head A b W d = head A' b' W' d' := by rw [hA, hb, hW, hd]

/-! ## The arrays the fold is read at -/

/-- One round of message passing over the graph read from the launched edge list, as a map of node arrays. -/
abbrev pass : FVec Ideal S100000x64 .f32 → FVec Ideal S100000x64 .f32 :=
  Graph.agg (Graph.src (m ((c : Thread nD τ).loc main_arg1))) (Graph.dst (m ((c : Thread nD τ).loc main_arg1))) (Graph.norm (m ((c : Thread nD τ).loc main_arg1)))

/-- The first product, passed once. -/
abbrev layer1 : FVec Ideal S100000x64 .f32 :=
  pass m c (Cert.Lib.MatProd.matProd (m ((c : Thread nD τ).loc main_arg0)) (m ((c : Thread nD τ).loc main_arg2)))

/-- The hidden layer of it. -/
abbrev layer2 : (⟨2, ![100000, 64]⟩ : Shape).Idx → EReal :=
  hidden (layer1 m c) (Cert.Lib.RowVector.asRow (m ((c : Thread nD τ).loc main_arg3))) (m ((c : Thread nD τ).loc main_arg4))

/-- A re-shaping [n]→[1,n] of equal vectors is the vector as a row. -/
theorem reshape_row {n : Nat} {x x' : (⟨1, ![n]⟩ : Shape).Idx → EReal} (hx : x = x')
    (h : (⟨1, ![n]⟩ : Shape).ShapeCasts ⟨2, ![1, n]⟩) :
    shapeCast ⟨2, ![1, n]⟩ x h = Cert.Lib.RowVector.asRow x' := hx ▸ Cert.Lib.RowVector.shapeCast_eq_asRow x h

/-! ## After the first region: its product, everything else as it was -/

theorem W4_v30 : W4 m ρ c (Proc.devRef .tc main_v30) = Cert.Lib.MatProd.matProd (m ((c : Thread nD τ).loc main_arg0)) (m ((c : Thread nD τ).loc main_arg2)) :=
  (W4_arr m ρ c 2).trans ((RegionValue.region0 (V3 m ρ) c).trans (matProd_args (W3_arg0 m ρ c) (W3_arg2 m ρ c)))
theorem W4_v3 : W4 m ρ c (Proc.devRef .tc main_v3) = Graph.src (m ((c : Thread nD τ).loc main_arg1)) :=
  (W4_of_ne m ρ c main_v3 (by decide)).trans (W3_v3 m ρ c)
theorem W4_v6 : W4 m ρ c (Proc.devRef .tc main_v6) = Graph.dst (m ((c : Thread nD τ).loc main_arg1)) :=
  (W4_of_ne m ρ c main_v6 (by decide)).trans (W3_v6 m ρ c)
theorem W4_v29 : W4 m ρ c (Proc.devRef .tc main_v29) = Graph.norm (m ((c : Thread nD τ).loc main_arg1)) :=
  (W4_of_ne m ρ c main_v29 (by decide)).trans (W3_v29 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)

/-! ## After the second stretch of host operations: the first round of message passing and the bias row -/

set_option maxHeartbeats 1000000 in
theorem W5_v43 : W5 m ρ c (Proc.devRef .tc main_v43) = layer1 m c := by
  show StableHlo.after hostOps1 (W4 m ρ c) (Proc.devRef .tc main_v43) = _
  after_results
  exact (kAgg_eq _ _ _ _).trans (agg_args (W4_v3 m ρ c) (W4_v6 m ρ c) (W4_v29 m ρ c) (W4_v30 m ρ c))

theorem W5_v44 : W5 m ρ c (Proc.devRef .tc main_v44) = Cert.Lib.RowVector.asRow (m ((c : Thread nD τ).loc main_arg3)) := by
  show StableHlo.after hostOps1 (W4 m ρ c) (Proc.devRef .tc main_v44) = _
  after_results
  exact reshape_row (W4_arg3 m ρ c) shapeCasts_S64_S1x64

theorem W5_arg4' : W5 m ρ c (Proc.devRef .tc main_arg4) = W4 m ρ c (Proc.devRef .tc main_arg4) := by
  show StableHlo.after hostOps1 (W4 m ρ c) (Proc.devRef .tc main_arg4) = _
  after_results
theorem W5_v3' : W5 m ρ c (Proc.devRef .tc main_v3) = W4 m ρ c (Proc.devRef .tc main_v3) := by
  show StableHlo.after hostOps1 (W4 m ρ c) (Proc.devRef .tc main_v3) = _
  after_results
theorem W5_v6' : W5 m ρ c (Proc.devRef .tc main_v6) = W4 m ρ c (Proc.devRef .tc main_v6) := by
  show StableHlo.after hostOps1 (W4 m ρ c) (Proc.devRef .tc main_v6) = _
  after_results
theorem W5_v29' : W5 m ρ c (Proc.devRef .tc main_v29) = W4 m ρ c (Proc.devRef .tc main_v29) := by
  show StableHlo.after hostOps1 (W4 m ρ c) (Proc.devRef .tc main_v29) = _
  after_results
theorem W5_arg5' : W5 m ρ c (Proc.devRef .tc main_arg5) = W4 m ρ c (Proc.devRef .tc main_arg5) := by
  show StableHlo.after hostOps1 (W4 m ρ c) (Proc.devRef .tc main_arg5) = _
  after_results
theorem W5_arg6' : W5 m ρ c (Proc.devRef .tc main_arg6) = W4 m ρ c (Proc.devRef .tc main_arg6) := by
  show StableHlo.after hostOps1 (W4 m ρ c) (Proc.devRef .tc main_arg6) = _
  after_results
theorem W5_arg7' : W5 m ρ c (Proc.devRef .tc main_arg7) = W4 m ρ c (Proc.devRef .tc main_arg7) := by
  show StableHlo.after hostOps1 (W4 m ρ c) (Proc.devRef .tc main_arg7) = _
  after_results

theorem W5_arg4 : W5 m ρ c (Proc.devRef .tc main_arg4) = (m ((c : Thread nD τ).loc main_arg4)) := (W5_arg4' m ρ c).trans (W4_arg4 m ρ c)

/-! ## After the second region: the hidden layer, everything else as it was -/

theorem W6_v45 : W6 m ρ c (Proc.devRef .tc main_v45) = layer2 m c :=
  (W6_arr m ρ c 3).trans ((RegionValue.region1 (V5 m ρ) c).trans
    (hidden_args (W5_v43 m ρ c) (W5_v44 m ρ c) (W5_arg4 m ρ c)))
theorem W6_v3 : W6 m ρ c (Proc.devRef .tc main_v3) = Graph.src (m ((c : Thread nD τ).loc main_arg1)) :=
  (W6_of_ne m ρ c main_v3 (by decide)).trans ((W5_v3' m ρ c).trans (W4_v3 m ρ c))
theorem W6_v6 : W6 m ρ c (Proc.devRef .tc main_v6) = Graph.dst (m ((c : Thread nD τ).loc main_arg1)) :=
  (W6_of_ne m ρ c main_v6 (by decide)).trans ((W5_v6' m ρ c).trans (W4_v6 m ρ c))
theorem W6_v29 : W6 m ρ c (Proc.devRef .tc main_v29) = Graph.norm (m ((c : Thread nD τ).loc main_arg1)) :=
  (W6_of_ne m ρ c main_v29 (by decide)).trans ((W5_v29' m ρ c).trans (W4_v29 m ρ c))
theorem W6_arg5 : W6 m ρ c (Proc.devRef .tc main_arg5) = (m ((c : Thread nD τ).loc main_arg5)) :=
  (W6_of_ne m ρ c main_arg5 (by decide)).trans ((W5_arg5' m ρ c).trans (W4_arg5 m ρ c))
theorem W6_arg6 : W6 m ρ c (Proc.devRef .tc main_arg6) = (m ((c : Thread nD τ).loc main_arg6)) :=
  (W6_of_ne m ρ c main_arg6 (by decide)).trans ((W5_arg6' m ρ c).trans (W4_arg6 m ρ c))
theorem W6_arg7 : W6 m ρ c (Proc.devRef .tc main_arg7) = (m ((c : Thread nD τ).loc main_arg7)) :=
  (W6_of_ne m ρ c main_arg7 (by decide)).trans ((W5_arg7' m ρ c).trans (W4_arg7 m ρ c))

/-! ## After the third stretch of host operations: the second round of message passing and the two bias rows -/

set_option maxHeartbeats 1000000 in
theorem W7_v58 : W7 m ρ c (Proc.devRef .tc main_v58) = pass m c (layer2 m c) := by
  show StableHlo.after hostOps2 (W6 m ρ c) (Proc.devRef .tc main_v58) = _
  after_results
  exact (kAgg_eq _ _ _ _).trans (agg_args (W6_v3 m ρ c) (W6_v6 m ρ c) (W6_v29 m ρ c) (W6_v45 m ρ c))

theorem W7_v59 : W7 m ρ c (Proc.devRef .tc main_v59) = Cert.Lib.RowVector.asRow (m ((c : Thread nD τ).loc main_arg5)) := by
  show StableHlo.after hostOps2 (W6 m ρ c) (Proc.devRef .tc main_v59) = _
  after_results
  exact reshape_row (W6_arg5 m ρ c) shapeCasts_S64_S1x64

theorem W7_v60 : W7 m ρ c (Proc.devRef .tc main_v60) = Cert.Lib.RowVector.asRow (m ((c : Thread nD τ).loc main_arg7)) := by
  show StableHlo.after hostOps2 (W6 m ρ c) (Proc.devRef .tc main_v60) = _
  after_results
  exact reshape_row (W6_arg7 m ρ c) shapeCasts_S16_S1x16

theorem W7_arg6 : W7 m ρ c (Proc.devRef .tc main_arg6) = (m ((c : Thread nD τ).loc main_arg6)) := by
  refine Eq.trans ?_ (W6_arg6 m ρ c)
  show StableHlo.after hostOps2 (W6 m ρ c) (Proc.devRef .tc main_arg6) = _
  after_results

/-! ## After the third region: the result -/

/-- The result array at the end of the program: two graph-convolution layers and the linear head of the arguments
    as launched. -/
theorem W8_v61 : W8 m ρ c (Proc.devRef .tc main_v61)
    = Cert.Gcn.net (Graph.agg (Graph.src (m ((c : Thread nD τ).loc main_arg1))) (Graph.dst (m ((c : Thread nD τ).loc main_arg1))) (Graph.norm (m ((c : Thread nD τ).loc main_arg1))))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 4).trans ((RegionValue.region2 (V7 m ρ) c).trans
    (head_args (W7_v58 m ρ c) (W7_v59 m ρ c) (W7_arg6 m ρ c) (W7_v60 m ρ c)))

end Cert.KernelIdeal.Fold

end
-- ==== Proof.RefValue.lean ====
/-
  The reference's result is the network of Layers.lean around the message passing of Graph.lean.

  The reference computes, from the edge list e, the 1700000 sources and destinations (the edges, then one loop edge
  per node), the degree of every node, degree^(-1/2) where the degree is positive, and the weight of every edge; one
  round of message passing gathers the source's row of a 100000×64 array along every edge, scales it by the edge's
  weight and sums it into the destination's row. Around two such rounds it multiplies by W1, adds b1 and clamps at zero
  and multiplies by W2, adds b2 and clamps at zero and multiplies by Wl, and adds bl.

  The graph operations are written here once more with the reference's own shape records (`rSrc` … `rAgg`): they are
  the definitions of Graph.lean letter for letter — the records have the same fields, and their side conditions are
  propositions —, so each is equal to its namesake by unfolding both, one small step at a time over a variable edge
  list and a variable node array. The dense steps are the reference's spellings read in Layers.lean. The result is
  then read from the outside in: the head, a round of message passing, a hidden layer, a round of message passing, the
  first product. No sum is touched.
-/
import proofs.«110061_j30425548325001_1_alg».proof.Proof.RefRun
import proofs.«110061_j30425548325001_1_alg».proof.Proof.Layers
import proofs.«110061_j30425548325001_1_alg».proof.Proof.Graph

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The graph side in the reference's spelling -/

/-- Row 0 of the edge list, then the node numbers. -/
abbrev rSrc (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list, then the node numbers. -/
abbrev rDst (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end; as a column of one-entry index vectors. -/
abbrev rWrap (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- Ones summed over the edges that end in a node. -/
abbrev rDeg (e : IVec S2x1600000 32) : FVec Ideal S100000 .f32 :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (rDst e)) (broadcastInDim S1700000 ![] bcast_S_S1700000 (constant (F := Ideal) S_ .f32 0x3F800000#32))

/-- degree^(-1/2) where the degree is positive, zero elsewhere. -/
abbrev rDinv (e : IVec S2x1600000 32) : FVec Ideal S100000 .f32 :=
  select (cmpf (F := Ideal) .ogt (rDeg e) (broadcastInDim S100000 ![] bcast_S_S100000 (constant (F := Ideal) S_ .f32 0x00000000#32))) (Host.rsqrt (F := Ideal) (rDeg e)) (broadcastInDim S100000 ![] bcast_S_S100000 (id (constant (F := Ideal) S_ .f32 0x00000000#32)))

/-- The weight of every edge. -/
abbrev rNorm (e : IVec S2x1600000 32) : FVec Ideal S1700000 .f32 :=
  mulf (F := Ideal) (Host.gather gather_S100000_S1700000x1_S1700000_n_0_n_n_0_1_1 (rDinv e) (rWrap (rSrc e))) (Host.gather gather_S100000_S1700000x1_S1700000_n_0_n_n_0_1_1 (rDinv e) (rWrap (rDst e)))

/-- One round of message passing. -/
abbrev rAgg (e : IVec S2x1600000 32) (H : FVec Ideal S100000x64 .f32) : FVec Ideal S100000x64 .f32 :=
  Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 (rDst e)) (mulf (F := Ideal) (Host.gather gather_S100000x64_S1700000x1_S1700000x64_1_0_n_n_0_1_164 H (rWrap (rSrc e))) (broadcastInDim S1700000x64 ![0, 1] bcast_S1700000x1_S1700000x64_0_1 (broadcastInDim S1700000x1 ![0] bcast_S1700000_S1700000x1_0 (rNorm e))))

theorem rSrc_eq (e : IVec S2x1600000 32) : rSrc e = Cert.Gcn.Graph.src e := rfl
theorem rDst_eq (e : IVec S2x1600000 32) : rDst e = Cert.Gcn.Graph.dst e := rfl
theorem rWrap_eq (v : IVec S1700000 32) : rWrap v = Cert.Gcn.Graph.wrap v := rfl
theorem rDeg_eq (e : IVec S2x1600000 32) : rDeg e = Cert.Gcn.Graph.deg e := rfl
theorem rDinv_eq (e : IVec S2x1600000 32) : rDinv e = Cert.Gcn.Graph.dinv e := rfl
theorem rNorm_eq (e : IVec S2x1600000 32) : rNorm e = Cert.Gcn.Graph.norm e := rfl

/-- The reference's round of message passing is the one of Graph.lean over the reference's sources, destinations
    and weights. -/
theorem rAgg_eq (e : IVec S2x1600000 32) (H : FVec Ideal S100000x64 .f32) :
    rAgg e H = Cert.Gcn.Graph.agg (Cert.Gcn.Graph.src e) (Cert.Gcn.Graph.dst e) (Cert.Gcn.Graph.norm e) H := rfl

/-! ## Equal arguments, equal results -/

theorem agg_arg (s d : IVec S1700000 32) (w : FVec Ideal S1700000 .f32) {H H' : FVec Ideal S100000x64 .f32}
    (h : H = H') : Cert.Gcn.Graph.agg s d w H = Cert.Gcn.Graph.agg s d w H' := h ▸ rfl

theorem hidden_arg {r k n : Nat} {A A' : (⟨2, ![r, k]⟩ : Shape).Idx → EReal} (h : A = A')
    (b : (⟨2, ![1, k]⟩ : Shape).Idx → EReal) (W : (⟨2, ![k, n]⟩ : Shape).Idx → EReal) :
    Cert.Gcn.hidden A b W = Cert.Gcn.hidden A' b W := h ▸ rfl

theorem head_arg {r k n : Nat} {A A' : (⟨2, ![r, k]⟩ : Shape).Idx → EReal} (h : A = A')
    (b : (⟨2, ![1, k]⟩ : Shape).Idx → EReal) (W : (⟨2, ![k, n]⟩ : Shape).Idx → EReal)
    (c : (⟨2, ![1, n]⟩ : Shape).Idx → EReal) :
    Cert.Gcn.head A b W c = Cert.Gcn.head A' b W c := h ▸ rfl

/-! ## The reference's result -/

set_option maxRecDepth 8192 in
/-- The reference's result, for any launch memory: the network around the message passing over the graph read from
    the edge list. -/
theorem ref_value (m : (ℓ : Loc nD τ sig) → Buf (Elt Ideal) ℓ) (c : Dev nD) :
    Cert.ReferenceIdeal.ValueP.res_main_v69 (F := Ideal) m c
      = Cert.Gcn.net (Cert.Gcn.Graph.agg (Cert.Gcn.Graph.src (m ((c.tc : Thread nD τ).loc main_arg1))) (Cert.Gcn.Graph.dst (m ((c.tc : Thread nD τ).loc main_arg1))) (Cert.Gcn.Graph.norm (m ((c.tc : Thread nD τ).loc main_arg1))))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v69 Cert.Gcn.net
  refine (Cert.Gcn.host_head (r := 100000) (k := 64) (n := 16) dot_S100000x64_S64x16_S100000x16_1_0_0_1_n_n rfl rfl rfl rfl rfl rfl _ _ _ _ _ _ _ _ _).trans ?_
  refine head_arg ?_ _ _ _
  refine (rAgg_eq (m ((c.tc : Thread nD τ).loc main_arg1)) _).trans ?_
  refine agg_arg _ _ _ ?_
  refine (Cert.Gcn.host_hidden (r := 100000) (k := 64) (n := 64) dot_S100000x64_S64x64_S100000x64_1_0_0_1_n_n rfl rfl rfl rfl rfl rfl _ _ _ _ _ _).trans ?_
  refine hidden_arg ?_ _ _
  refine (rAgg_eq (m ((c.tc : Thread nD τ).loc main_arg1)) _).trans ?_
  refine agg_arg _ _ _ ?_
  exact Cert.Gcn.host_matProd (r := 100000) (k := 128) (n := 64) dot_S100000x128_S128x64_S100000x64_1_0_0_1_n_n rfl rfl rfl rfl rfl rfl _ _

end Cert.ReferenceIdeal.RefValue

end
-- ==== Proof.lean ====
/-
  A two-layer graph convolution with a linear head, computed by three regions of the tensor core among host
  operations, against the same network written with whole-array operations.

  Both programs take node features x (100000×128), an edge list (2×1600000 node numbers), and W1, b1, W2, b2, Wl, bl.
  Both read the same graph off the edge list — every edge and one loop edge per node; the degree of a node counts the
  edges that end in it, and an edge's weight is the product, over its two ends, of degree^(-1/2) (zero where the
  degree is not positive) — and one round of message passing over it, `pass`, sends a 100000×64 node array H to the
  array whose row d is the sum, over the edges s → d, of the edge's weight times row s of H. Writing relu for the
  maximum with zero, entry by entry, and adding a bias vector to every row, both compute

      relu( pass( relu( pass(x·W1) + b1 )·W2 ) + b2 )·Wl + bl.

  The reference does each product as one whole-array product. The other program does each of the three dense steps
  in a region that walks over 20 blocks of 5000 rows; since an entry of a product depends on one row of its left
  operand, the blocks of rows of the result are the rows of the whole-array result, and the 20 blocks cover it. The
  host operations of the message passing are the same operations in both programs. On the extended reals the
  narrowing of a product's operands to a shorter float format is the identity, so the two results are the same
  function of the arguments: no sum is re-ordered and nothing is distributed or cancelled, so the proof never opens
  the precondition that the inputs are finite.

  The frames: each program's run terminates without fault and leaves its arguments as launched. Reading the program on
  the extended reals rewrote none of its operations, so there is nothing to preserve.
-/
import proofs.«110061_j30425548325001_1_alg».proof.Defs
import proofs.«110061_j30425548325001_1_alg».proof.Proof.Gen.Kernel
import proofs.«110061_j30425548325001_1_alg».proof.Proof.Gen.Kernel.Skeleton
import proofs.«110061_j30425548325001_1_alg».proof.Proof.Gen.Kernel.Launch
import proofs.«110061_j30425548325001_1_alg».proof.Proof.Gen.Kernel.Points
import proofs.«110061_j30425548325001_1_alg».proof.Proof.Gen.Kernel.Frame
import proofs.«110061_j30425548325001_1_alg».proof.Proof.Gen.KernelIdeal
import proofs.«110061_j30425548325001_1_alg».proof.Proof.Gen.KernelIdeal.Skeleton
import proofs.«110061_j30425548325001_1_alg».proof.Proof.Gen.KernelIdeal.Launch
import proofs.«110061_j30425548325001_1_alg».proof.Proof.Gen.KernelIdeal.Points
import proofs.«110061_j30425548325001_1_alg».proof.Proof.Gen.KernelIdeal.Frame
import proofs.«110061_j30425548325001_1_alg».proof.Proof.Gen.ReferenceIdeal
import proofs.«110061_j30425548325001_1_alg».proof.Proof.Gen.Pre_finite_inputs
import proofs.«110061_j30425548325001_1_alg».proof.Proof.KernelRun
import proofs.«110061_j30425548325001_1_alg».proof.Proof.KernelFoldB
import proofs.«110061_j30425548325001_1_alg».proof.Proof.RefRun
import proofs.«110061_j30425548325001_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Reading the program on the extended reals rewrote none of its operations. -/
theorem preserves : Cert.preserves_Kernel_KernelIdeal := trivial

/-- From memories that agree on the eight arguments both programs end with the same 100000×16 array: the network of
    the arguments as launched, around the message passing over the graph read from the edge list. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Fold.W8_v61 m ρ c), (h c).2⟩)
    (Cert.KernelIdeal.Result.run_result m ρ), ?_⟩
  refine (θ_run Cert.ReferenceIdeal.defs _ _).mono
    (fun _ h c => ⟨(h c).1.trans ((Cert.ReferenceIdeal.RefValue.ref_value m' c).trans ?_), (h c).2⟩)
    (Cert.ReferenceIdeal.ValueP.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
